-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S1x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S1x1x2048x2048 : Shape := ⟨4, ![1, 1, 2048, 2048]⟩
abbrev S2x16x64x2048 : Shape := ⟨4, ![2, 16, 64, 2048]⟩
abbrev S1x1x2048x64 : Shape := ⟨4, ![1, 1, 2048, 64]⟩
abbrev S1x1x1024x64 : Shape := ⟨4, ![1, 1, 1024, 64]⟩
abbrev S1x1x64x2048 : Shape := ⟨4, ![1, 1, 64, 2048]⟩
abbrev S2048x64 : Shape := ⟨2, ![2048, 64]⟩
abbrev S64x2048 : Shape := ⟨2, ![64, 2048]⟩
abbrev S1024x64 : Shape := ⟨2, ![1024, 64]⟩
abbrev S1024x2048 : Shape := ⟨2, ![1024, 2048]⟩
abbrev S1x1x1024x2048 : Shape := ⟨4, ![1, 1, 1024, 2048]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i1⟩
  | .hbm, ⟨4, _⟩ => ⟨S1x1x2048x2048, .i1⟩
  | .hbm, ⟨5, _⟩ => ⟨S1x1x2048x2048, .i32⟩
  | .hbm, ⟨6, _⟩ => ⟨S2x16x64x2048, .f32⟩
  | .hbm, ⟨7, _⟩ => ⟨S2x16x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x2048x2048, .i32⟩
  | .local _ .vmem, ⟨7, _⟩ => ⟨S1x1x64x2048, .f32⟩
  | .local _ .vmem, ⟨8, _⟩ => ⟨S1x1x64x2048, .f32⟩
  | .local _ .vmem, ⟨9, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 2], ![false, false, false]⟩

def k0_mult1 (i : grid0.Coords) : BitVec 32 :=
  let arg2 : BitVec 32 := BitVec.ofNat 32 (i 2).val
  let c1024_i32 : BitVec 32 := 1024#32
  let v3 : BitVec 32 := Scalar.muli arg2 c1024_i32
  v3
def k0_off1 (i : grid0.Coords) : Fin 4 → Nat :=
  let c0_10 : Index := 0#32
  let c0_11 : Index := 0#32
  let arg2 : BitVec 32 := BitVec.ofNat 32 (i 2).val
  let c1024_i32 : BitVec 32 := 1024#32
  let v3 : BitVec 32 := Scalar.muli arg2 c1024_i32
  let v4 : BitVec 32 := v3
  let v13 : Index := Scalar.indexCast v4
  let c0_12 : Index := 0#32
  ![0, 0, v13.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1x2048x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S1x1x2048x2048_S1x1x2048x2048_0_1_3_2 : S1x1x2048x2048.Transposes [0, 1, 3, 2] S1x1x2048x2048
  natLt_1_32 : 1 < 32
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  shapeCasts_S64x2048_S1x1x64x2048 : S64x2048.ShapeCasts S1x1x64x2048
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  h_S1x1x1024x2048 : 0 < S1x1x1024x2048.numel
  shapeCasts_S1x1x1024x2048_S1024x2048 : S1x1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  transposes_S2x16x64x2048_S2x16x2048x64_0_1_3_2 : S2x16x64x2048.Transposes [0, 1, 3, 2] S2x16x2048x64
  dot_S1024x64_S2048x64_S1024x2048_1_1_0_0_n_n_wf : DotDims.WF S1024x64 S2048x64 S1024x2048 [1] [1] [0] [0] [] []
  dot_S1024x64_S1024x2048_S64x2048_0_0_1_1_n_n_wf : DotDims.WF S1024x64 S1024x2048 S64x2048 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S1x1x1024x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x64.size a ≤ S2x16x2048x64.size a
  hwx0_0 : ∀ i : grid0.Coords, EltTy.bits .f32 = 32 ∨ (Rect.block (s := S2x16x2048x64) S1x1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S2x16x2048x64.size a
  hwx0_1 : ∀ i : grid0.Coords, EltTy.bits .f32 = 32 ∨ (Rect.block (s := S2x16x2048x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S2x16x2048x64.size a
  hwx0_2 : ∀ i : grid0.Coords, EltTy.bits .f32 = 32 ∨ (Rect.block (s := S2x16x2048x64) S1x1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S1x1x2048x2048.size a
  hwx0_3 : ∀ i : grid0.Coords, EltTy.bits .i32 = 32 ∨ (Rect.block (s := S1x1x2048x2048) S1x1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64x2048.size a ≤ S2x16x64x2048.size a
  hwx0_4 : ∀ i : grid0.Coords, EltTy.bits .f32 = 32 ∨ (Rect.block (s := S2x16x64x2048) S1x1x64x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x64_S1024x2048_S64x2048_0_0_1_1_n_n : DotDims S1024x64 S1024x2048 S64x2048 where
  lhsContracting := [0]
  rhsContracting := [0]
  lhsNonContracting := [1]
  rhsNonContracting := [1]
  lhsBatch := []
  rhsBatch := []
  wf := dot_S1024x64_S1024x2048_S64x2048_0_0_1_1_n_n_wf

abbrev win0_0 : Pipeline.Window sig grid0 :=
  Pipeline.Window.ofSpec (Memref.whole main_arg0) S1x1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S1x1x2048x2048 : Shape := ⟨4, ![1, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x1x2048 : Shape := ⟨4, ![2, 16, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048x2048, .i1⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x1x2048, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x1x2048, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d2 : S2x16x2048x2048.ReducesTo [2] S2x16x2048
  h_S_ : 0 < S_.numel
  bcast_S_S2x16x2048 : S_.BroadcastsInDim S2x16x2048 (![] : Fin 0 → Fin S2x16x2048.rank)
  bcast_S2x16x2048_S2x16x1x2048_0_1_3 : S2x16x2048.BroadcastsInDim S2x16x1x2048 (![0, 1, 3] : Fin 3 → Fin S2x16x1x2048.rank)
  bcast_S2x16x1x2048_S2x16x2048x2048_0_1_2_3 : S2x16x1x2048.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Masked soft-max attention with the soft-max taken over the QUERY axis, stated once over the extended reals.

  For one head, S r c is the masked score of key r against query c.  Row r's soft-max is
  exp (S r c - max_c S r c) / sum_c exp (S r c - max_c S r c), and the head's output at (query c, feature e)
  is sum_r P r c * v r e.  The two programs differ in how a score is spelled -- sum_d k_d * (q_d * 1/8) against
  (sum_d q_d * k_d) / 8 -- and in how the sum over the keys is grouped (two halves of 1024 keys, added in turn to
  a zero block, against one sum over 2048 keys).  Both differences vanish on the extended reals: a product with
  the non-negative finite constant 1/8 distributes over every sum, and addition is associative.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of q, k, v and of the result; and of the mask. -/
abbrev SQ : Shape := ⟨4, ![2, 16, 2048, 64]⟩
abbrev SM : Shape := ⟨4, ![1, 1, 2048, 2048]⟩
/-- The kernel's own result layout, features before queries. -/
abbrev SO : Shape := ⟨4, ![2, 16, 64, 2048]⟩

/-- The fill value of a masked score (-1e9), the scale 1/8 and the divisor 8, and the start of a maximum, as the
    words both programs spell. -/
abbrev negBig : EReal := Ideal.ofBits .f32 0xCE6E6B28#32
abbrev eighth : EReal := Ideal.ofBits .f32 0x3E000000#32
abbrev eight : EReal := Ideal.ofBits .f32 0x41000000#32
abbrev negInf : EReal := Ideal.ofBits .f32 0xFF800000#32

/-- The word 0x3E000000 denotes 1/8. -/
theorem eighth_eq : eighth = ((1 / 8 : ℝ) : EReal) := by
  simp [Ideal.ofBits, Ideal.ieee, -EReal.coe_mul]; norm_num

/-- The word 0x41000000 denotes 8. -/
theorem eight_eq : eight = ((8 : ℝ) : EReal) := by
  simp [Ideal.ofBits, Ideal.ieee, -EReal.coe_mul]; norm_num

/-- A product with a non-negative real constant distributes over a finite sum of extended reals. -/
theorem sum_mul_coe {ι : Type} (s : Finset ι) (f : ι → EReal) (c : ℝ) (hc : 0 ≤ c) :
    (∑ i ∈ s, f i * (c : EReal)) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- The score law: the keys' row against the pre-scaled queries' row is the plain dot product divided by 8. -/
theorem scaled_dot_eq {n : ℕ} (q k : Fin n → EReal) :
    (∑ d, k d * (q d * eighth)) = Ideal.div (∑ d, q d * k d) eight := by
  rw [eighth_eq, eight_eq, Ideal.div_coe (by norm_num), ← sum_mul_coe _ _ _ (by norm_num)]
  refine Finset.sum_congr rfl fun d _ => ?_
  rw [← mul_assoc, mul_comm (k d) (q d)]

/-! ## One row's soft-max -/

variable {a b : ℕ}

/-- Row r's maximum, folded from the bottom word. -/
def rowMax (S : Fin a → Fin b → EReal) (r : Fin a) : EReal :=
  (Finset.univ : Finset (Fin b)).fold max negInf (fun c => S r c)

/-- exp of the score less its row's maximum. -/
def ex (S : Fin a → Fin b → EReal) (r : Fin a) (c : Fin b) : EReal := Ideal.exp (S r c - rowMax S r)

/-- Row r's normaliser. -/
def rowSum (S : Fin a → Fin b → EReal) (r : Fin a) : EReal := ∑ c, ex S r c

/-- The soft-max weight of (r, c): row r normalised. -/
def prob (S : Fin a → Fin b → EReal) (r : Fin a) (c : Fin b) : EReal := Ideal.div (ex S r c) (rowSum S r)

/-- A row's weights depend on that row only: re-indexing the rows commutes with the soft-max. -/
theorem prob_rows {a' : ℕ} (S : Fin a → Fin b → EReal) (f : Fin a' → Fin a) (r : Fin a') (c : Fin b) :
    prob (fun r' => S (f r')) r c = prob S (f r) c := rfl

/-! ## The whole arrays -/

/-- The masked score of key kk against query qq in head (b, h), in the reference's spelling. -/
def scores (q k : SQ.Idx → EReal) (mask : SM.Idx → BitVec 1) (bb : Fin 2) (hh : Fin 16) (kk qq : Fin 2048) : EReal :=
  Scalar.select (mask (ix4 0 0 qq kk)) negBig (Ideal.div (∑ d : Fin 64, q (ix4 bb hh qq d) * k (ix4 bb hh kk d)) eight)

/-- The same in the kernel's spelling: the keys' row against the queries' row scaled by 1/8. -/
def kscores (q k : SQ.Idx → EReal) (mask : SM.Idx → BitVec 1) (bb : Fin 2) (hh : Fin 16) (kk qq : Fin 2048) : EReal :=
  Scalar.select (mask (ix4 0 0 qq kk)) negBig (∑ d : Fin 64, k (ix4 bb hh kk d) * (q (ix4 bb hh qq d) * eighth))

theorem kscores_eq (q k : SQ.Idx → EReal) (mask : SM.Idx → BitVec 1) : kscores q k mask = scores q k mask := by
  funext bb hh kk qq
  unfold kscores scores
  rw [scaled_dot_eq]

/-- Attention's result at (b, h, query, feature): the sum over the keys of weight times value. -/
def attn (q k v : SQ.Idx → EReal) (mask : SM.Idx → BitVec 1) (bb : Fin 2) (hh : Fin 16) (qq : Fin 2048) (e : Fin 64) : EReal :=
  ∑ kk : Fin 2048, prob (scores q k mask bb hh) kk qq * v (ix4 bb hh kk e)

/-- The result array. -/
def G (q k v : SQ.Idx → EReal) (mask : SM.Idx → BitVec 1) : SQ.Idx → EReal :=
  fun i => attn q k v mask (i 0) (i 1) (i 2) (i 3)

/-- The kernel's own output array, before the final swap of its last two axes. -/
def GT (q k v : SQ.Idx → EReal) (mask : SM.Idx → BitVec 1) : SO.Idx → EReal :=
  fun i => attn q k v mask (i 0) (i 1) (i 3) (i 2)

/-- Key number t of the first and of the second half. -/
abbrev lo (t : Fin 1024) : Fin 2048 := ⟨t.val, by have := t.isLt; omega⟩
abbrev hi (t : Fin 1024) : Fin 2048 := ⟨1024 + t.val, by have := t.isLt; omega⟩

/-- The two halves of the keys, added in turn to zero, make the sum over all keys. -/
theorem sum_halves (f : Fin 2048 → EReal) :
    (0 + ∑ t : Fin 1024, f (lo t)) + ∑ t : Fin 1024, f (hi t) = ∑ kk : Fin 2048, f kk := by
  rw [zero_add]
  exact (Fin.sum_univ_add (a := 1024) (b := 1024) f).symm

end Cert.Attn

end
-- ==== Proof.Layout.lean ====
/-
  Arrays with two leading unit axes, and arrays with their last two axes swapped, read at an index written by
  coordinates.
-/
import Idealize.ShloMosaic.Lib.ValueIdx
import Idealize.ShloMosaic.Lib.ValueLayout
import Idealize.ShloMosaic.Lib.Pipeline.Value

noncomputable section

namespace Cert.Attn.Layout

open Idealize.ShloMosaic Idealize.ShloMosaic.ValueIdx

variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- Swapping the last two axes of a rank-four array: the result at (p, q, j, i) is the operand at (p, q, i, j). -/
theorem transpose_0132_apply {n0 n1 a b : ℕ} (x : (⟨4, ![n0, n1, a, b]⟩ : Shape).Idx → α)
    (h : (⟨4, ![n0, n1, a, b]⟩ : Shape).Transposes [0, 1, 3, 2] ⟨4, ![n0, n1, b, a]⟩)
    (p : Fin n0) (q : Fin n1) (i : Fin a) (j : Fin b) :
    transpose ⟨4, ![n0, n1, b, a]⟩ [0, 1, 3, 2] x h (ix4 p q j i) = x (ix4 p q i j) :=
  transpose_apply _ x h _ _ fun c => match c with | ⟨0, _⟩ => rfl | ⟨1, _⟩ => rfl | ⟨2, _⟩ => rfl | ⟨3, _⟩ => rfl

end Cert.Attn.Layout

end
-- ==== Proof.KRun.lean ====
/-
  The kernel program's run, from the region's output to the program's result.

  The program is: two host operations on the mask, one region whose output array holds, per head, the features before the
  queries, and one host operation after it that swaps the last two axes back.  Given that the region's output ends at the
  specification's array in that layout -- attention's value at (b, h, feature, query) -- the result buffer ends at the
  specification's array: swapping the last two axes of the one gives the other, index by index.  The four argument
  buffers end as launched: three are arrays the region only reads, the fourth is written by no operation.
-/
import proofs.«177088_j4836133175782_2_alg».proof.Proof.Gen.KernelIdeal.Frame
import proofs.«177088_j4836133175782_2_alg».proof.Proof.Spec
import proofs.«177088_j4836133175782_2_alg».proof.Proof.Layout
import Idealize.ShloMosaic.Lib.Pipeline.Value
import Idealize.ShloMosaic.Lib.StableHlo.Run

noncomputable section

namespace Cert.KernelIdeal.KRun

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The program's result buffer after the last host operation: the region's output array with its last two axes swapped
    back, which is the specification's array when the region's output is the specification's features-before-queries array. -/
theorem tail_v3 (c : Dev nD) (hfinal : (dats m 0 c).arrAt 4 cfg0.N
      = Cert.Attn.GT (m ((c : Thread nD τ).loc main_arg0)) (m ((c : Thread nD τ).loc main_arg1)) (m ((c : Thread nD τ).loc main_arg2)) (m ((c : Thread nD τ).loc main_arg3))) :
    Pipeline.afterTail₀ cfgs (dats m) 0 (V0 m) [hostOps1] c main_v3
      = Cert.Attn.G (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = Cert.Attn.GT (m ((c : Thread nD τ).loc main_arg0)) (m ((c : Thread nD τ).loc main_arg1)) (m ((c : Thread nD τ).loc main_arg2)) (m ((c : Thread nD τ).loc main_arg3)) :=
    (Pipeline.withArrays_arr spec0 launch0.win.arr_inj c _ _ 4).trans hfinal
  rw [e]
  funext i
  obtain ⟨b, h, q, f, rfl⟩ : ∃ (b : Fin 2) (h : Fin 16) (q : Fin 2048) (f : Fin 64), i = ix4 b h q f :=
    ⟨i 0, i 1, i 2, i 3, eq_ix4 i⟩
  exact Cert.Attn.Layout.transpose_0132_apply _ transposes_S2x16x64x2048_S2x16x2048x64_0_1_3_2 b h f q

/-- Every weakly fair execution of the program on the TensorCores ends with the result buffer at the specification's
    array and the four argument buffers as launched, given that the region's output array ends at the specification's
    features-before-queries array. -/
theorem run (hfinal : ∀ c : Dev nD, (dats m 0 c).arrAt 4 cfg0.N
      = Cert.Attn.GT (m ((c : Thread nD τ).loc main_arg0)) (m ((c : Thread nD τ).loc main_arg1)) (m ((c : Thread nD τ).loc main_arg2)) (m ((c : Thread nD τ).loc main_arg3))) :
    θ_run defs (onTc (τ := τ) (main (F := Ideal))) ⟨m, fun _ => 0, ρ⟩ fun r => ∀ c : Dev nD,
      r.2.mem ((c : Thread nD τ).loc main_v3)
        = Cert.Attn.G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v3 (Pipeline.mem_restRefs_of main_v3 (by decide) (by decide))).trans (tail_v3 m c (hfinal c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KRun

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.RefValue.lean ====
/-
  The reference program computes the specification's array G.

  For each head (b, h) the reference lays the score of query q against key k at the entry (b, h, q, k) of a rank-four
  array: the dot product over the features divided by 8, replaced by the fill value where the mask is set.  It then takes
  the maximum, and the sum of the exponentials, along the THIRD axis -- over the queries, for each key -- divides, and
  contracts the weights with the values over the keys.  Read one index at a time, every stage is the specification's
  function of the same name with the key as the row and the query as the column; the only inequality used is that the
  bottom word is below a maximum folded from it, so no constant is ever evaluated except the zero a sum starts from.
-/
import proofs.«177088_j4836133175782_2_alg».proof.Proof.Gen.ReferenceIdeal.Read
import proofs.«177088_j4836133175782_2_alg».proof.Proof.Spec
import proofs.«177088_j4836133175782_2_alg».proof.Proof.LibRows

noncomputable section

namespace Cert.Attn.RefValue

open Idealize.ShloMosaic Idealize.ShloMosaic.ValueIdx Cert.ReferenceIdeal Cert.ReferenceIdeal.Read

/-! ## Where each stage's index function sends an index written by its coordinates -/

theorem lidx_v0_at (b : Fin 2) (h : Fin 16) (q k : Fin 2048) (d : Fin 64) :
    lidx_main_v0 (ix4 b h q k) d = ix4 b h q d := by
  funext a; apply Fin.ext
  match a with | ⟨0, _⟩ => rfl | ⟨1, _⟩ => rfl | ⟨2, _⟩ => rfl | ⟨3, _⟩ => rfl

theorem ridx_v0_at (b : Fin 2) (h : Fin 16) (q k : Fin 2048) (d : Fin 64) :
    ridx_main_v0 (ix4 b h q k) d = ix4 b h k d := by
  funext a; apply Fin.ext
  match a with | ⟨0, _⟩ => rfl | ⟨1, _⟩ => rfl | ⟨2, _⟩ => rfl | ⟨3, _⟩ => rfl

theorem idx_mask_at (b : Fin 2) (h : Fin 16) (q k : Fin 2048) :
    idx_main_call0_v0 (ix4 b h q k) = ix4 (0 : Fin 1) (0 : Fin 1) q k := by
  funext a; apply Fin.ext
  match a with | ⟨0, _⟩ => rfl | ⟨1, _⟩ => rfl | ⟨2, _⟩ => rfl | ⟨3, _⟩ => rfl

/-- The masked score: the reference's array at (b, h, query q, key k) is the specification's score of key k against query q. -/
theorem v3_at (x0 x1 : (⟨S2x16x2048x64, .f32⟩ : BufTy).Contents (Elt Ideal)) (x3 : (⟨S1x1x2048x2048, .i1⟩ : BufTy).Contents (Elt Ideal))
    (b : Fin 2) (h : Fin 16) (q k : Fin 2048) :
    val_main_v3 (F := Ideal) x0 x1 x3 (ix4 b h q k) = scores x0 x1 x3 b h k q := by
  rw [val_main_v3_apply, val_main_call0_v0_apply, val_main_call0_v1_apply, val_main_cst_0_apply, val_main_v2_apply,
    val_main_v0_apply, val_main_v1_apply, val_main_cst_apply, idx_mask_at]
  simp only [Ideal.hostDivf_def, Ideal.ofBits_def, lidx_v0_at, ridx_v0_at]
  rfl

/-! ## The maximum over the queries -/

/-- Head (b, h), key k, with the query coordinate q put back in third place, is (b, h, q, k). -/
theorem lift_axis2 (hr : S2x16x2048x2048.Reduces [2] S2x16x2048) (b : Fin 2) (h : Fin 16) (k : Fin 2048)
    (q : Fin (S2x16x2048x2048.size 2)) :
    hr.lift (ix3 b h k) q = ix4 b h (⟨q.val, q.isLt⟩ : Fin 2048) k := by
  funext c; apply Fin.ext
  fin_cases c <;> rfl

/-- A reduction by max over the query axis: at (b, h, key k), the fold of max from the initial value over the queries. -/
theorem hostMaxAxis2_apply (X : FVec Ideal S2x16x2048x2048 .f32) (init : S_.Idx → Ideal .f32)
    (h' : S2x16x2048x2048.ReducesTo [2] S2x16x2048) (hu : 0 < S_.numel) (b : Fin 2) (h : Fin 16) (k : Fin 2048) :
    Host.reduce FloatOps.maximumf X init h' hu (ix3 b h k)
      = (Finset.univ : Finset (Fin 2048)).fold max (init (Shape.Idx.first hu)) (fun q => X (ix4 b h q k)) := by
  have hr : S2x16x2048x2048.Reduces [2] S2x16x2048 := by decide
  refine (Host.reduce_eq_fold_single FloatOps.maximumf X init h' hr hu (ix3 b h k)).trans ?_
  have hf : (X ∘ hr.lift (ix3 b h k)) = fun q : Fin 2048 => X (ix4 b h q k) :=
    funext fun q => congrArg X (lift_axis2 hr b h k q)
  exact congrArg (fun f => Finset.fold max (init (Shape.Idx.first hu)) f (Finset.univ : Finset (Fin 2048))) hf

/-- The reference's running maximum at (b, h, key k) is the specification's maximum of row k. -/
theorem v6_at (x0 x1 : (⟨S2x16x2048x64, .f32⟩ : BufTy).Contents (Elt Ideal)) (x3 : (⟨S1x1x2048x2048, .i1⟩ : BufTy).Contents (Elt Ideal))
    (b : Fin 2) (h : Fin 16) (k : Fin 2048) :
    val_main_v6 (F := Ideal) x0 x1 x3 (ix3 b h k) = rowMax (scores x0 x1 x3 b h) k := by
  rw [val_main_v6_apply, val_main_v5_apply, val_main_cst_2_apply]
  unfold val_main_v4
  rw [hostMaxAxis2_apply, val_main_cst_1_apply]
  simp only [Ideal.maximumf_def, Ideal.ofBits_def, v3_at]
  exact max_eq_right ((Finset.le_fold_max _).mpr (Or.inl le_rfl))

/-! ## The exponentials, their sum over the queries, and the weights -/

theorem idx_v8_at (b : Fin 2) (h : Fin 16) (q k : Fin 2048) :
    idx_main_v8 (ix4 b h q k) = ix4 b h (0 : Fin 1) k := by
  funext a; apply Fin.ext
  match a with | ⟨0, _⟩ => rfl | ⟨1, _⟩ => rfl | ⟨2, _⟩ => rfl | ⟨3, _⟩ => rfl

theorem idx_v7_at (b : Fin 2) (h : Fin 16) (u : Fin 1) (k : Fin 2048) :
    idx_main_v7 (ix4 b h u k) = ix3 b h k := by
  funext a; apply Fin.ext
  match a with | ⟨0, _⟩ => rfl | ⟨1, _⟩ => rfl | ⟨2, _⟩ => rfl

theorem idx_v13_at (b : Fin 2) (h : Fin 16) (q k : Fin 2048) :
    idx_main_v13 (ix4 b h q k) = ix4 b h (0 : Fin 1) k := by
  funext a; apply Fin.ext
  match a with | ⟨0, _⟩ => rfl | ⟨1, _⟩ => rfl | ⟨2, _⟩ => rfl | ⟨3, _⟩ => rfl

theorem idx_v12_at (b : Fin 2) (h : Fin 16) (u : Fin 1) (k : Fin 2048) :
    idx_main_v12 (ix4 b h u k) = ix3 b h k := by
  funext a; apply Fin.ext
  match a with | ⟨0, _⟩ => rfl | ⟨1, _⟩ => rfl | ⟨2, _⟩ => rfl

theorem idx_v11_at (b : Fin 2) (h : Fin 16) (k q : Fin 2048) :
    idx_main_v11 (ix3 b h k) q = ix4 b h q k := by
  funext a; apply Fin.ext
  match a with | ⟨0, _⟩ => rfl | ⟨1, _⟩ => rfl | ⟨2, _⟩ => rfl | ⟨3, _⟩ => rfl

theorem lidx_v15_at (b : Fin 2) (h : Fin 16) (q : Fin 2048) (e : Fin 64) (k : Fin 2048) :
    lidx_main_v15 (ix4 b h q e) k = ix4 b h q k := by
  funext a; apply Fin.ext
  match a with | ⟨0, _⟩ => rfl | ⟨1, _⟩ => rfl | ⟨2, _⟩ => rfl | ⟨3, _⟩ => rfl

theorem ridx_v15_at (b : Fin 2) (h : Fin 16) (q : Fin 2048) (e : Fin 64) (k : Fin 2048) :
    ridx_main_v15 (ix4 b h q e) k = ix4 b h k e := by
  funext a; apply Fin.ext
  match a with | ⟨0, _⟩ => rfl | ⟨1, _⟩ => rfl | ⟨2, _⟩ => rfl | ⟨3, _⟩ => rfl

/-- The row maximum spread back over the queries: at (b, h, q, k) it is row k's maximum, whatever q. -/
theorem v8_at (x0 x1 : (⟨S2x16x2048x64, .f32⟩ : BufTy).Contents (Elt Ideal)) (x3 : (⟨S1x1x2048x2048, .i1⟩ : BufTy).Contents (Elt Ideal))
    (b : Fin 2) (h : Fin 16) (q k : Fin 2048) :
    val_main_v8 (F := Ideal) x0 x1 x3 (ix4 b h q k) = rowMax (scores x0 x1 x3 b h) k := by
  rw [val_main_v8_apply, idx_v8_at, val_main_v7_apply, idx_v7_at, v6_at]

/-- exp of the score less its row's maximum. -/
theorem v10_at (x0 x1 : (⟨S2x16x2048x64, .f32⟩ : BufTy).Contents (Elt Ideal)) (x3 : (⟨S1x1x2048x2048, .i1⟩ : BufTy).Contents (Elt Ideal))
    (b : Fin 2) (h : Fin 16) (q k : Fin 2048) :
    val_main_v10 (F := Ideal) x0 x1 x3 (ix4 b h q k) = ex (scores x0 x1 x3 b h) k q := by
  rw [val_main_v10_apply, val_main_v9_apply, v3_at, v8_at]
  simp only [Ideal.hostUnary_exp_def, Ideal.subf_def]
  rfl

/-- Row k's normaliser: the leading zero word adds nothing. -/
theorem v11_at (x0 x1 : (⟨S2x16x2048x64, .f32⟩ : BufTy).Contents (Elt Ideal)) (x3 : (⟨S1x1x2048x2048, .i1⟩ : BufTy).Contents (Elt Ideal))
    (b : Fin 2) (h : Fin 16) (k : Fin 2048) :
    val_main_v11 (F := Ideal) x0 x1 x3 (ix3 b h k) = rowSum (scores x0 x1 x3 b h) k := by
  rw [val_main_v11_apply, val_main_cst_3_apply]
  simp only [Ideal.ofBits_def, Ideal.ofBits_zero_f32, zero_add, idx_v11_at, v10_at]
  rfl

/-- The normaliser spread back over the queries. -/
theorem v13_at (x0 x1 : (⟨S2x16x2048x64, .f32⟩ : BufTy).Contents (Elt Ideal)) (x3 : (⟨S1x1x2048x2048, .i1⟩ : BufTy).Contents (Elt Ideal))
    (b : Fin 2) (h : Fin 16) (q k : Fin 2048) :
    val_main_v13 (F := Ideal) x0 x1 x3 (ix4 b h q k) = rowSum (scores x0 x1 x3 b h) k := by
  rw [val_main_v13_apply, idx_v13_at, val_main_v12_apply, idx_v12_at, v11_at]

/-- The soft-max weight of key k for query q. -/
theorem v14_at (x0 x1 : (⟨S2x16x2048x64, .f32⟩ : BufTy).Contents (Elt Ideal)) (x3 : (⟨S1x1x2048x2048, .i1⟩ : BufTy).Contents (Elt Ideal))
    (b : Fin 2) (h : Fin 16) (q k : Fin 2048) :
    val_main_v14 (F := Ideal) x0 x1 x3 (ix4 b h q k) = prob (scores x0 x1 x3 b h) k q := by
  rw [val_main_v14_apply, v10_at, v13_at]
  simp only [Ideal.hostDivf_def]
  rfl

/-! ## The reference computes the specification's array -/

theorem ref_eq (x0 x1 x2 : (⟨S2x16x2048x64, .f32⟩ : BufTy).Contents (Elt Ideal)) (x3 : (⟨S1x1x2048x2048, .i1⟩ : BufTy).Contents (Elt Ideal)) :
    val_main_v15 (F := Ideal) x0 x1 x2 x3 = Cert.Attn.G x0 x1 x2 x3 := by
  funext i
  obtain ⟨b, h, q, e, rfl⟩ : ∃ (b : Fin 2) (h : Fin 16) (q : Fin 2048) (e : Fin 64), i = ix4 b h q e :=
    ⟨i 0, i 1, i 2, i 3, eq_ix4 i⟩
  rw [val_main_v15_apply]
  show _ = ∑ kk : Fin 2048, prob (scores x0 x1 x3 b h) kk q * x2 (ix4 b h kk e)
  refine Finset.sum_congr rfl fun kk _ => ?_
  rw [lidx_v15_at, ridx_v15_at, v14_at]

end Cert.Attn.RefValue

end
-- ==== Proof.Pieces.lean ====
/-
  What one grid point of the attention kernel leaves behind, as values.  A grid point is (batch, head, key tile);
  a head's two key tiles are consecutive points.  At the first tile the body zeroes the head's output block, stores
  the queries scaled by 1/8 into the scratch, and adds the tile's contribution to the zero block; at the second tile
  it reads the scratch and the output block as the first tile left them and adds its own contribution.  Each
  contribution is one pure function of the scaled queries, the tile's keys and values, and the tile's 1024 rows of
  the transposed mask.
-/
import proofs.«177088_j4836133175782_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The 1024 rows of the transposed mask that the point at grid coordinates i reads: rows 1024 * (i 2) onwards. -/
abbrev mrows (i : grid0.Coords) (x3 : Vec F S1x1x2048x2048 .i32) : Vec F S1x1x1024x2048 .i32 :=
  View.ld x3 (Rect.unit (s := S1x1x2048x2048) (k0_off1 i) S1x1x1024x2048.size (k0_off1_inb i))

/-- At a head's first key tile the scratch is left holding the scaled queries. -/
theorem sout_A (c : Dev nD) (i : grid0.Coords) (a3 : Memref sig .tc .vmem S1x1x2048x64 .f32) (h3 : a3.IsWhole) (a4 : Memref sig .tc .vmem S1x1x1024x64 .f32) (h4 : a4.IsWhole) (a5 : Memref sig .tc .vmem S1x1x1024x64 .f32) (h5 : a5.IsWhole) (a6 : Memref sig .tc .vmem S1x1x2048x2048 .i32) (h6 : a6.IsWhole) (a7 : Memref sig .tc .vmem S1x1x64x2048 .f32) (h7 : a7.IsWhole) (a8 : Memref sig .tc .vmem S2048x64 .bf16) (h8 : a8.IsWhole) (hc : cond0_0 i)
    (x0 : Vec F S1x1x2048x64 .f32) (x1 : Vec F S1x1x1024x64 .f32) (x2 : Vec F S1x1x1024x64 .f32) (x3 : Vec F S1x1x2048x2048 .i32) :
    sout0_A_0 c i a3 h3 a4 h4 a5 h5 a6 h6 a7 h7 a8 h8 hc x0 x1 x2 x3 = k0_pay3 x0 := by
  unfold sout0_A_0
  rw [View.read_writes_eq_canon _ _ _ (scover0_A_0 c i a3 h3 a4 h4 a5 h5 a6 h6 a7 h7 a8 h8 hc x0 x1 x2 x3)]
  unfold kernelRun0_A
  dsimp only
  sl_unfold_words
  rw [View.canon_unit_zero hz2]
  simp only [View.readAt_eq_ld, h3.read_unread, View.ld_unit_zero (S := S1x1x2048x64) hz4]

/-- At a head's first key tile the output block is the zero block plus the tile's contribution, computed from the
    scaled queries just stored. -/
theorem out_A (c : Dev nD) (i : grid0.Coords) (a3 : Memref sig .tc .vmem S1x1x2048x64 .f32) (h3 : a3.IsWhole) (a4 : Memref sig .tc .vmem S1x1x1024x64 .f32) (h4 : a4.IsWhole) (a5 : Memref sig .tc .vmem S1x1x1024x64 .f32) (h5 : a5.IsWhole) (a6 : Memref sig .tc .vmem S1x1x2048x2048 .i32) (h6 : a6.IsWhole) (a7 : Memref sig .tc .vmem S1x1x64x2048 .f32) (h7 : a7.IsWhole) (a8 : Memref sig .tc .vmem S2048x64 .bf16) (h8 : a8.IsWhole) (hc : cond0_0 i)
    (x0 : Vec F S1x1x2048x64 .f32) (x1 : Vec F S1x1x1024x64 .f32) (x2 : Vec F S1x1x1024x64 .f32) (x3 : Vec F S1x1x2048x2048 .i32) :
    out0_A_4 c i a3 h3 a4 h4 a5 h5 a6 h6 a7 h7 a8 h8 hc x0 x1 x2 x3
      = k0_pay1 (k0_pay4 (k0_pay3 x0) x1 x2 (mrows i x3)) k0_pay2 := by
  unfold out0_A_4
  rw [View.read_writes_eq_canon _ _ _ (cover0_A_4 c i a3 h3 a4 h4 a5 h5 a6 h6 a7 h7 a8 h8 hc x0 x1 x2 x3)]
  unfold kernelRun0_A
  dsimp only
  sl_unfold_words
  rw [View.canon_cons_unit_zero (S := S1x1x64x2048) hz4, View.readCov_unit_zero (S := S1x1x64x2048) _ hz4,
    View.readCov_unit_zero (S := S2048x64) _ hz2]
  simp only [View.readAt_eq_ld, h3.read_unread, h4.read_unread, h5.read_unread, h6.read_unread,
    View.ld_unit_zero (S := S1x1x2048x64) hz4, View.ld_unit_zero (S := S1x1x1024x64) hz4]
  rfl

/-- At a head's second key tile the output block is what the first tile left plus this tile's contribution, computed
    from the scratch as the first tile left it. -/
theorem out_B (c : Dev nD) (i : grid0.Coords) (a3 : Memref sig .tc .vmem S1x1x2048x64 .f32) (h3 : a3.IsWhole) (a4 : Memref sig .tc .vmem S1x1x1024x64 .f32) (h4 : a4.IsWhole) (a5 : Memref sig .tc .vmem S1x1x1024x64 .f32) (h5 : a5.IsWhole) (a6 : Memref sig .tc .vmem S1x1x2048x2048 .i32) (h6 : a6.IsWhole) (a7 : Memref sig .tc .vmem S1x1x64x2048 .f32) (h7 : a7.IsWhole) (a8 : Memref sig .tc .vmem S2048x64 .bf16) (h8 : a8.IsWhole) (hc : ¬cond0_0 i)
    (x0 : Vec F S1x1x2048x64 .f32) (x1 : Vec F S1x1x1024x64 .f32) (x2 : Vec F S1x1x1024x64 .f32) (x3 : Vec F S1x1x2048x2048 .i32) (xo4 : Vec F S1x1x64x2048 .f32) (xs0 : Vec F S2048x64 .bf16) :
    out0_B_4 c i a3 h3 a4 h4 a5 h5 a6 h6 a7 h7 a8 h8 hc x0 x1 x2 x3 xo4 xs0
      = k0_pay1 (k0_pay4 xs0 x1 x2 (mrows i x3)) xo4 := by
  unfold out0_B_4
  rw [View.read_writes_eq_canon _ _ _ (cover0_B_4 c i a3 h3 a4 h4 a5 h5 a6 h6 a7 h7 a8 h8 hc x0 x1 x2 x3 xo4 xs0)]
  unfold kernelRun0_B
  dsimp only
  sl_unfold_words
  rw [View.canon_unit_zero hz4]
  simp only [View.readAt_eq_ld, h4.read_unread, h5.read_unread, h6.read_unread, h7.read_unread, h8.read_unread,
    View.ld_unit_zero (S := S1x1x64x2048) hz4, View.ld_unit_zero (S := S1x1x1024x64) hz4, View.ld_unit_zero (S := S2048x64) hz2]
  rfl

end Cert.KernelIdeal.Pieces

end
-- ==== Proof.Tiles.lean ====
/-
  The grid, point by point.  Point t of the 64 stands for batch t / 32, head (t / 2) % 16 and key tile t % 2, so a
  head's two key tiles are the consecutive points 2j and 2j + 1, and the head's output block is written back after
  the second.  What the output block holds then is the zero block plus the first tile's contribution plus the
  second's, both computed from the head's queries scaled once, at the first tile.  Also here: which entries of the
  argument arrays each window's block holds at a point, and the transposed, widened mask the kernel is handed.
-/
import proofs.«177088_j4836133175782_2_alg».proof.Proof.Pieces
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Pieces

variable {F : FTy → Type} [FloatOps F]
variable (m : (ℓ : Loc nD τ sig) → Buf (Elt F) ℓ)

/-- The contribution of point t's key tile, from scaled queries qs. -/
def contrib (c : Dev nD) (t : Fin cfg0.N) (qs : Vec F S2048x64 .bf16) : FVec F S64x2048 .f32 :=
  k0_pay4 qs (iblk m c 1 t) (iblk m c 2 t) (mrows (grid0.coords t) (iblk m c 3 t))

/-- After a head's first tile: the output block at zero plus the contribution, the scratch at the scaled queries. -/
theorem outs_first (c : Dev nD) (t : Fin cfg0.N) (h0 : t.val % 2 = 0) :
    outsAt0 m c t.val t.isLt
      = (k0_pay1 (contrib m c t (k0_pay3 (iblk m c 0 t))) k0_pay2, k0_pay3 (iblk m c 0 t)) :=
  (outsAt0_A m c t h0).trans (congrArg₂ Prod.mk
    (out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t))
    (sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)))

/-- After a head's second tile: the output block at what the first tile left plus the contribution computed from the
    scratch as the first tile left it; the scratch unchanged. -/
theorem outs_second (c : Dev nD) (t : Fin cfg0.N) (h0 : ¬t.val % 2 = 0) :
    outsAt0 m c t.val t.isLt
      = (k0_pay1 (contrib m c t (outsAt0 m c (t.val - 1) (Nat.lt_of_le_of_lt (Nat.sub_le _ _) t.isLt)).2)
            (outsAt0 m c (t.val - 1) (Nat.lt_of_le_of_lt (Nat.sub_le _ _) t.isLt)).1,
          (outsAt0 m c (t.val - 1) (Nat.lt_of_le_of_lt (Nat.sub_le _ _) t.isLt)).2) :=
  (outsAt0_B m c t h0).trans (congrArg₂ Prod.mk
    (out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).1
      (outsAt0 m c (t.val - 1) (Nat.lt_of_le_of_lt (Nat.sub_le _ _) t.isLt)).2)
    rfl)

/-- The point before. -/
abbrev prev (t : Fin cfg0.N) : Fin cfg0.N := ⟨t.val - 1, Nat.lt_of_le_of_lt (Nat.sub_le _ _) t.isLt⟩

/-- So after a head's second tile the output block holds zero plus both tiles' contributions, each from the head's
    scaled queries. -/
theorem block_second (c : Dev nD) (t : Fin cfg0.N) (h1 : t.val % 2 = 1) :
    (outsAt0 m c t.val t.isLt).1
      = k0_pay1 (contrib m c t (k0_pay3 (iblk m c 0 (prev t))))
          (k0_pay1 (contrib m c (prev t) (k0_pay3 (iblk m c 0 (prev t)))) k0_pay2) := by
  have hp : (prev t).val % 2 = 0 := by show (t.val - 1) % 2 = 0; omega
  rw [outs_second m c t (by omega)]
  show k0_pay1 (contrib m c t (outsAt0 m c (prev t).val (prev t).isLt).2) (outsAt0 m c (prev t).val (prev t).isLt).1 = _
  rw [outs_first m c (prev t) hp]

/-! ## Which entries a block holds -/

/-- The printed index maps over the grid. -/
theorem idx0 : ∀ t : Fin cfg0.N, win0_0.index t (0 : Fin 4) = t.val / 32 ∧ win0_0.index t (1 : Fin 4) = t.val / 2 % 16
    ∧ win0_0.index t (2 : Fin 4) = 0 ∧ win0_0.index t (3 : Fin 4) = 0 :=
  (by decide +kernel : ∀ t : Fin grid0.N, _)
theorem idx1 : ∀ t : Fin cfg0.N, win0_1.index t (0 : Fin 4) = t.val / 32 ∧ win0_1.index t (1 : Fin 4) = t.val / 2 % 16
    ∧ win0_1.index t (2 : Fin 4) = t.val % 2 ∧ win0_1.index t (3 : Fin 4) = 0 :=
  (by decide +kernel : ∀ t : Fin grid0.N, _)
theorem idx2 : ∀ t : Fin cfg0.N, win0_2.index t (0 : Fin 4) = t.val / 32 ∧ win0_2.index t (1 : Fin 4) = t.val / 2 % 16
    ∧ win0_2.index t (2 : Fin 4) = t.val % 2 ∧ win0_2.index t (3 : Fin 4) = 0 :=
  (by decide +kernel : ∀ t : Fin grid0.N, _)
theorem idx3 : ∀ t : Fin cfg0.N, win0_3.index t (0 : Fin 4) = 0 ∧ win0_3.index t (1 : Fin 4) = 0
    ∧ win0_3.index t (2 : Fin 4) = 0 ∧ win0_3.index t (3 : Fin 4) = 0 :=
  (by decide +kernel : ∀ t : Fin grid0.N, _)
theorem idx4 : ∀ t : Fin cfg0.N, win0_4.index t (0 : Fin 4) = t.val / 32 ∧ win0_4.index t (1 : Fin 4) = t.val / 2 % 16
    ∧ win0_4.index t (2 : Fin 4) = 0 ∧ win0_4.index t (3 : Fin 4) = 0 :=
  (by decide +kernel : ∀ t : Fin grid0.N, _)
/-- The key tile a point reads of the mask starts at row 1024 * (t % 2). -/
theorem off3 : ∀ t : Fin cfg0.N, (grid0.coords t (2 : Fin 3)).val = t.val % 2 :=
  (by decide +kernel : ∀ t : Fin grid0.N, _)

theorem N64 : cfg0.N = 64 := N_0

/-- Point t's batch, head and, for the r-th key of its tile, the key's number. -/
abbrev bOf (t : Fin cfg0.N) : Fin 2 := ⟨t.val / 32, by have := t.isLt; have := N64; omega⟩
abbrev hOf (t : Fin cfg0.N) : Fin 16 := ⟨t.val / 2 % 16, by omega⟩
abbrev keyOf (t : Fin cfg0.N) (r : Fin 1024) : Fin 2048 := ⟨1024 * (t.val % 2) + r.val, by have := r.isLt; omega⟩

/-- The query block at a point: all 2048 queries of the point's head. -/
theorem iblk0_apply (c : Dev nD) (t : Fin cfg0.N) (q : Fin 2048) (d : Fin 64) :
    (iblk m c 0 t : Vec F S1x1x2048x64 .f32) (ix4 0 0 q d) = V m c main_arg0 (ix4 (bOf t) (hOf t) q d) := by
  obtain ⟨e0, e1, e2, e3⟩ := idx0 t
  show V m c main_arg0 (((cfg0.win 0).blk t).view.emb (ix4 0 0 q d)) = V m c main_arg0 (ix4 (bOf t) (hOf t) q d)
  refine congrArg (V m c main_arg0) (funext fun a => Fin.ext ?_)
  match a with
  | ⟨0, _⟩ => show win0_0.index t (0 : Fin 4) * 1 + 1 * 0 = t.val / 32; omega
  | ⟨1, _⟩ => show win0_0.index t (1 : Fin 4) * 1 + 1 * 0 = t.val / 2 % 16; omega
  | ⟨2, _⟩ => show win0_0.index t (2 : Fin 4) * 2048 + 1 * q.val = q.val; omega
  | ⟨3, _⟩ => show win0_0.index t (3 : Fin 4) * 64 + 1 * d.val = d.val; omega

/-- The key block at a point: the 1024 keys of the point's tile. -/
theorem iblk1_apply (c : Dev nD) (t : Fin cfg0.N) (r : Fin 1024) (d : Fin 64) :
    (iblk m c 1 t : Vec F S1x1x1024x64 .f32) (ix4 0 0 r d) = V m c main_arg1 (ix4 (bOf t) (hOf t) (keyOf t r) d) := by
  obtain ⟨e0, e1, e2, e3⟩ := idx1 t
  show V m c main_arg1 (((cfg0.win 1).blk t).view.emb (ix4 0 0 r d)) = V m c main_arg1 (ix4 (bOf t) (hOf t) (keyOf t r) d)
  refine congrArg (V m c main_arg1) (funext fun a => Fin.ext ?_)
  match a with
  | ⟨0, _⟩ => show win0_1.index t (0 : Fin 4) * 1 + 1 * 0 = t.val / 32; omega
  | ⟨1, _⟩ => show win0_1.index t (1 : Fin 4) * 1 + 1 * 0 = t.val / 2 % 16; omega
  | ⟨2, _⟩ => show win0_1.index t (2 : Fin 4) * 1024 + 1 * r.val = 1024 * (t.val % 2) + r.val; omega
  | ⟨3, _⟩ => show win0_1.index t (3 : Fin 4) * 64 + 1 * d.val = d.val; omega

/-- The value block at a point: the values of the same 1024 keys. -/
theorem iblk2_apply (c : Dev nD) (t : Fin cfg0.N) (r : Fin 1024) (d : Fin 64) :
    (iblk m c 2 t : Vec F S1x1x1024x64 .f32) (ix4 0 0 r d) = V m c main_arg2 (ix4 (bOf t) (hOf t) (keyOf t r) d) := by
  obtain ⟨e0, e1, e2, e3⟩ := idx2 t
  show V m c main_arg2 (((cfg0.win 2).blk t).view.emb (ix4 0 0 r d)) = V m c main_arg2 (ix4 (bOf t) (hOf t) (keyOf t r) d)
  refine congrArg (V m c main_arg2) (funext fun a => Fin.ext ?_)
  match a with
  | ⟨0, _⟩ => show win0_2.index t (0 : Fin 4) * 1 + 1 * 0 = t.val / 32; omega
  | ⟨1, _⟩ => show win0_2.index t (1 : Fin 4) * 1 + 1 * 0 = t.val / 2 % 16; omega
  | ⟨2, _⟩ => show win0_2.index t (2 : Fin 4) * 1024 + 1 * r.val = 1024 * (t.val % 2) + r.val; omega
  | ⟨3, _⟩ => show win0_2.index t (3 : Fin 4) * 64 + 1 * d.val = d.val; omega

/-- The mask rows a point reads: rows 1024 * (t % 2) onwards of the whole transposed mask. -/
theorem mrows_apply (c : Dev nD) (t : Fin cfg0.N) (r : Fin 1024) (q : Fin 2048) :
    mrows (grid0.coords t) (iblk m c 3 t : Vec F S1x1x2048x2048 .i32) (ix4 0 0 r q)
      = V m c main_v1 (ix4 0 0 (keyOf t r) q) := by
  obtain ⟨e0, e1, e2, e3⟩ := idx3 t
  have ho := off3 t
  have hk := k0_off1_eq (grid0.coords t)
  show V m c main_v1 (((cfg0.win 3).blk t).view.emb
      ((Rect.unit (s := S1x1x2048x2048) (k0_off1 (grid0.coords t)) S1x1x1024x2048.size (k0_off1_inb (grid0.coords t))).idx (ix4 0 0 r q)))
    = V m c main_v1 (ix4 0 0 (keyOf t r) q)
  refine congrArg (V m c main_v1) (funext fun a => Fin.ext ?_)
  match a with
  | ⟨0, _⟩ => show win0_3.index t (0 : Fin 4) * 1 + 1 * (k0_off1 (grid0.coords t) 0 + 1 * 0) = 0; rw [hk]; show win0_3.index t (0 : Fin 4) * 1 + 1 * (0 + 1 * 0) = 0; omega
  | ⟨1, _⟩ => show win0_3.index t (1 : Fin 4) * 1 + 1 * (k0_off1 (grid0.coords t) 1 + 1 * 0) = 0; rw [hk]; show win0_3.index t (1 : Fin 4) * 1 + 1 * (0 + 1 * 0) = 0; omega
  | ⟨2, _⟩ => show win0_3.index t (2 : Fin 4) * 2048 + 1 * (k0_off1 (grid0.coords t) 2 + 1 * r.val) = 1024 * (t.val % 2) + r.val; rw [hk]; show win0_3.index t (2 : Fin 4) * 2048 + 1 * (1024 * (grid0.coords t (2 : Fin 3)).val + 1 * r.val) = 1024 * (t.val % 2) + r.val; omega
  | ⟨3, _⟩ => show win0_3.index t (3 : Fin 4) * 2048 + 1 * (k0_off1 (grid0.coords t) 3 + 1 * q.val) = q.val; rw [hk]; show win0_3.index t (3 : Fin 4) * 2048 + 1 * (0 + 1 * q.val) = q.val; omega

/-- The mask the kernel is handed: the argument mask with its last two axes swapped, each bit widened to a word. -/
theorem V_main_v1 (c : Dev nD) :
    (V m c main_v1 : S1x1x2048x2048.Idx → BitVec 32)
      = extui 32 (transpose S1x1x2048x2048 [0, 1, 3, 2] (m ((c : Thread nD τ).loc main_arg3)) transposes_S1x1x2048x2048_S1x1x2048x2048_0_1_3_2) natLt_1_32 := by
  show StableHlo.after hostOps0 (fun b => m (c, b)) (Proc.devRef .tc main_v1) = _
  after_results

end Cert.KernelIdeal.Tiles

end
-- ==== Proof.KSoftmax.lean ====
/-
  A matrix's rows normalised the keepdims way -- each row's maximum taken, spread back over the row and subtracted,
  the exponentials summed along the row, the sum spread back and divided by -- read at (p, q): the soft-max weight
  of entry (p, q) within row p.
-/
import proofs.«177088_j4836133175782_2_alg».proof.Proof.Spec
import proofs.«177088_j4836133175782_2_alg».proof.Proof.LibRows

noncomputable section

namespace Cert.Attn

open Idealize.ShloMosaic Idealize.ShloMosaic.ValueIdx

/-- The row maxima spread over the rows, at (r, c): row r's maximum. -/
theorem spreadMax_apply {a b : ℕ} (X : FVec Ideal ⟨2, ![a, b]⟩ .f32)
    (hR : (⟨2, ![a, b]⟩ : Shape).Reduces [1] (⟨1, ![a]⟩ : Shape)) (hφ : FKind.Formats .f32)
    (hacc : (0xFF800000#32 : BitVec 32) = FKind.maximumf.neutral .f32 hφ)
    (hC : (⟨1, ![a]⟩ : Shape).ShapeCasts ⟨2, ![a, 1]⟩) (hB : (⟨2, ![a, 1]⟩ : Shape).Broadcasts ⟨2, ![a, b]⟩)
    (r : Fin a) (c : Fin b) :
    broadcastTo ⟨2, ![a, b]⟩ (shapeCast ⟨2, ![a, 1]⟩ (multiReduction .maximumf [1] ⟨1, ![a]⟩ X 0xFF800000#32 hR hφ hacc) hC) hB (ix2 r c)
      = rowMax (fun r c => X (ix2 r c)) r :=
  (Cert.LibRows.column_spread_apply _ hC hB r c).trans (Cert.LibRows.rowMax_apply X _ hR hφ hacc r)

/-- The keepdims soft-max of a matrix along its rows, at (p, q). -/
theorem softmax_apply {a b : ℕ} (X : FVec Ideal ⟨2, ![a, b]⟩ .f32)
    (hR : (⟨2, ![a, b]⟩ : Shape).Reduces [1] (⟨1, ![a]⟩ : Shape)) (hφ : FKind.Formats .f32)
    (haccM : (0xFF800000#32 : BitVec 32) = FKind.maximumf.neutral .f32 hφ)
    (hφ' : FKind.Formats .f32) (haccS : (0x00000000#32 : BitVec 32) = FKind.add.neutral .f32 hφ')
    (hC : (⟨1, ![a]⟩ : Shape).ShapeCasts ⟨2, ![a, 1]⟩) (hB : (⟨2, ![a, 1]⟩ : Shape).Broadcasts ⟨2, ![a, b]⟩)
    (p : Fin a) (q : Fin b) :
    divf (exp (subf X (broadcastTo ⟨2, ![a, b]⟩ (shapeCast ⟨2, ![a, 1]⟩ (multiReduction .maximumf [1] ⟨1, ![a]⟩ X 0xFF800000#32 hR hφ haccM) hC) hB)))
        (broadcastTo ⟨2, ![a, b]⟩ (shapeCast ⟨2, ![a, 1]⟩
          (multiReduction .add [1] ⟨1, ![a]⟩
            (exp (subf X (broadcastTo ⟨2, ![a, b]⟩ (shapeCast ⟨2, ![a, 1]⟩ (multiReduction .maximumf [1] ⟨1, ![a]⟩ X 0xFF800000#32 hR hφ haccM) hC) hB)))
            0x00000000#32 hR hφ' haccS) hC) hB)
        (ix2 p q)
      = prob (fun r c => X (ix2 r c)) p q := by
  have hE : ∀ (r : Fin a) (c : Fin b),
      exp (subf X (broadcastTo ⟨2, ![a, b]⟩ (shapeCast ⟨2, ![a, 1]⟩ (multiReduction .maximumf [1] ⟨1, ![a]⟩ X 0xFF800000#32 hR hφ haccM) hC) hB)) (ix2 r c)
        = ex (fun r c => X (ix2 r c)) r c := fun r c =>
    congrArg (fun m => Ideal.exp (X (ix2 r c) - m)) (spreadMax_apply X hR hφ haccM hC hB r c)
  have hS : broadcastTo ⟨2, ![a, b]⟩ (shapeCast ⟨2, ![a, 1]⟩
          (multiReduction .add [1] ⟨1, ![a]⟩
            (exp (subf X (broadcastTo ⟨2, ![a, b]⟩ (shapeCast ⟨2, ![a, 1]⟩ (multiReduction .maximumf [1] ⟨1, ![a]⟩ X 0xFF800000#32 hR hφ haccM) hC) hB)))
            0x00000000#32 hR hφ' haccS) hC) hB (ix2 p q)
        = rowSum (fun r c => X (ix2 r c)) p :=
    (Cert.LibRows.spreadRowSum_apply _ _ hR hφ' haccS hC hB p q).trans (Finset.sum_congr rfl fun c _ => hE p c)
  show Ideal.div _ _ = Ideal.div _ _
  rw [hS]
  exact congrArg (fun e => Ideal.div e (rowSum (fun r c => X (ix2 r c)) p)) (hE p q)

end Cert.Attn

end
-- ==== Proof.KPay.lean ====
/-
  The kernel body's arithmetic read at an index, over the extended reals.

  The scaled queries at (query, d) are the query block's entry times 1/8.  A key tile's contribution at
  (feature e, query c) is the sum over the tile's 1024 keys r of value (r, e) times the soft-max weight of (r, c),
  the soft-max taken along each key's row of masked scores; a score is the keys' row against the scaled queries' row,
  replaced by -1e9 where the transposed mask's word is non-zero.  The block update adds the contribution to what the
  block held.
-/
import proofs.«177088_j4836133175782_2_alg».proof.Proof.Gen.KernelIdeal.Skeleton
import proofs.«177088_j4836133175782_2_alg».proof.Proof.KSoftmax
import proofs.«177088_j4836133175782_2_alg».proof.Proof.Layout
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Idealize.ShloMosaic Idealize.ShloMosaic.ValueIdx
open Cert.KernelIdeal Cert.KernelIdeal.Gen Cert.Attn Cert.Attn.Layout

/-! ## The two matrix products -/

/-- The scores' product: keys [1024, 64] against scaled queries [2048, 64], both contracted along d. -/
abbrev D1 := dot_S1024x64_S2048x64_S1024x2048_1_1_0_0_n_n
/-- The values' product: values [1024, 64] against weights [1024, 2048], both contracted along the tile's keys. -/
abbrev D2 := dot_S1024x64_S1024x2048_S64x2048_0_0_1_1_n_n

theorem d1_lhs_0 (i : S1024x2048.Idx) (q : D1.contr.Idx) : (D1.lhsIdx i q 0).val = (i 0).val := by
  unfold DotDims.lhsIdx
  rw [dif_neg (show ¬(0 : Fin S1024x64.rank) ∈ D1.lhsBatch by decide), dif_pos (show (0 : Fin S1024x64.rank) ∈ D1.lhsNonContracting by decide)]
  rfl
theorem d1_lhs_1 (i : S1024x2048.Idx) (q : D1.contr.Idx) : (D1.lhsIdx i q 1).val = (q ⟨0, by decide⟩).val :=
  D1.lhsIdx_val_of_single rfl i q
theorem d1_rhs_0 (i : S1024x2048.Idx) (q : D1.contr.Idx) : (D1.rhsIdx i q 0).val = (i 1).val := by
  unfold DotDims.rhsIdx
  rw [dif_neg (show ¬(0 : Fin S2048x64.rank) ∈ D1.rhsBatch by decide), dif_pos (show (0 : Fin S2048x64.rank) ∈ D1.rhsNonContracting by decide)]
  rfl
theorem d1_rhs_1 (i : S1024x2048.Idx) (q : D1.contr.Idx) : (D1.rhsIdx i q 1).val = (q ⟨0, by decide⟩).val :=
  D1.rhsIdx_val_of_single rfl i q

/-- The scores' product at (key r, query c): the sum over d of key (r, d) times scaled query (c, d). -/
theorem scores_matmul_apply (K : FVec Ideal S1024x64 .bf16) (Q : FVec Ideal S2048x64 .bf16) (r : Fin 1024) (c : Fin 2048) :
    matmul D1 none K Q (constant S1024x2048 .f32 0x00000000#32) (ix2 r c) = ∑ d : Fin 64, K (ix2 r d) * Q (ix2 c d) := by
  refine (Ideal.matmul_constant_zero_apply D1 none K Q (ix2 r c)).trans ?_
  rw [← Equiv.sum_comp (ValueIdx.contrEquiv1 D1 64 rfl rfl).symm]
  refine Finset.sum_congr rfl fun k _ => ?_
  have hk := ValueIdx.contrEquiv1_symm_val D1 64 rfl rfl k
  have el : D1.lhsIdx (ix2 r c) ((ValueIdx.contrEquiv1 D1 64 rfl rfl).symm k) = ix2 r k := funext fun a => Fin.ext (by
    match a with
    | ⟨0, _⟩ => exact d1_lhs_0 _ _
    | ⟨1, _⟩ => exact (d1_lhs_1 _ _).trans hk)
  have er : D1.rhsIdx (ix2 r c) ((ValueIdx.contrEquiv1 D1 64 rfl rfl).symm k) = ix2 c k := funext fun a => Fin.ext (by
    match a with
    | ⟨0, _⟩ => exact d1_rhs_0 _ _
    | ⟨1, _⟩ => exact (d1_rhs_1 _ _).trans hk)
  rw [el, er]

theorem d2_lhs_0 (i : S64x2048.Idx) (q : D2.contr.Idx) : (D2.lhsIdx i q 0).val = (q ⟨0, by decide⟩).val :=
  D2.lhsIdx_val_of_single rfl i q
theorem d2_lhs_1 (i : S64x2048.Idx) (q : D2.contr.Idx) : (D2.lhsIdx i q 1).val = (i 0).val := by
  unfold DotDims.lhsIdx
  rw [dif_neg (show ¬(1 : Fin S1024x64.rank) ∈ D2.lhsBatch by decide), dif_pos (show (1 : Fin S1024x64.rank) ∈ D2.lhsNonContracting by decide)]
  rfl
theorem d2_rhs_0 (i : S64x2048.Idx) (q : D2.contr.Idx) : (D2.rhsIdx i q 0).val = (q ⟨0, by decide⟩).val :=
  D2.rhsIdx_val_of_single rfl i q
theorem d2_rhs_1 (i : S64x2048.Idx) (q : D2.contr.Idx) : (D2.rhsIdx i q 1).val = (i 1).val := by
  unfold DotDims.rhsIdx
  rw [dif_neg (show ¬(1 : Fin S1024x2048.rank) ∈ D2.rhsBatch by decide), dif_pos (show (1 : Fin S1024x2048.rank) ∈ D2.rhsNonContracting by decide)]
  rfl

/-- The values' product at (feature e, query c): the sum over the tile's keys r of value (r, e) times weight (r, c). -/
theorem values_matmul_apply (V : FVec Ideal S1024x64 .bf16) (P : FVec Ideal S1024x2048 .bf16) (e : Fin 64) (c : Fin 2048) :
    matmul D2 none V P (constant S64x2048 .f32 0x00000000#32) (ix2 e c) = ∑ r : Fin 1024, V (ix2 r e) * P (ix2 r c) := by
  refine (Ideal.matmul_constant_zero_apply D2 none V P (ix2 e c)).trans ?_
  rw [← Equiv.sum_comp (ValueIdx.contrEquiv1 D2 1024 rfl rfl).symm]
  refine Finset.sum_congr rfl fun k _ => ?_
  have hk := ValueIdx.contrEquiv1_symm_val D2 1024 rfl rfl k
  have el : D2.lhsIdx (ix2 e c) ((ValueIdx.contrEquiv1 D2 1024 rfl rfl).symm k) = ix2 k e := funext fun a => Fin.ext (by
    match a with
    | ⟨0, _⟩ => exact (d2_lhs_0 _ _).trans hk
    | ⟨1, _⟩ => exact d2_lhs_1 _ _)
  have er : D2.rhsIdx (ix2 e c) ((ValueIdx.contrEquiv1 D2 1024 rfl rfl).symm k) = ix2 k c := funext fun a => Fin.ext (by
    match a with
    | ⟨0, _⟩ => exact (d2_rhs_0 _ _).trans hk
    | ⟨1, _⟩ => exact d2_rhs_1 _ _)
  rw [el, er]

/-! ## The payloads -/

/-- The scaled queries at (query c, d). -/
theorem pay3_apply (x0 : Vec Ideal S1x1x2048x64 .f32) (c : Fin 2048) (d : Fin 64) :
    k0_pay3 x0 (ix2 c d) = x0 (ix4 0 0 c d) * eighth := by
  unfold k0_pay3
  rw [shapeCast_self]
  show shapeCast S2048x64 x0 shapeCasts_S1x1x2048x64_S2048x64 (ix2 c d) * eighth = _
  rw [shapeCast_11ab_ab_apply]

/-- The zero block. -/
theorem pay2_apply (j : S1x1x64x2048.Idx) : k0_pay2 (F := Ideal) j = 0 :=
  Ideal.ofBits_zero_f32

/-- The block update at (0, 0, e, c): what the block held plus the contribution. -/
theorem pay1_apply (v29 : FVec Ideal S64x2048 .f32) (v30 : Vec Ideal S1x1x64x2048 .f32) (e : Fin 64) (c : Fin 2048) :
    k0_pay1 v29 v30 (ix4 0 0 e c) = v30 (ix4 0 0 e c) + v29 (ix2 e c) := by
  unfold k0_pay1
  rw [shapeCast_ab_11ab_apply]
  show shapeCast S64x2048 v30 shapeCasts_S1x1x64x2048_S64x2048 (ix2 e c) + v29 (ix2 e c) = _
  rw [shapeCast_11ab_ab_apply]

/-- A tile's masked scores from its loaded blocks: key r of the tile against query c. -/
def tscore (qs : FVec Ideal S2048x64 .bf16) (x1 : Vec Ideal S1x1x1024x64 .f32) (mk : Vec Ideal S1x1x1024x2048 .i32)
    (r : Fin 1024) (c : Fin 2048) : EReal :=
  Scalar.select (IntOp.cmpi .ne (mk (ix4 0 0 r c)) 0#32) negBig (∑ d : Fin 64, x1 (ix4 0 0 r d) * qs (ix2 c d))

/-- A tile's contribution at (feature e, query c). -/
theorem pay4_apply (qs : FVec Ideal S2048x64 .bf16) (x1 x2 : Vec Ideal S1x1x1024x64 .f32) (mk : Vec Ideal S1x1x1024x2048 .i32)
    (e : Fin 64) (c : Fin 2048) :
    k0_pay4 qs x1 x2 mk (ix2 e c) = ∑ r : Fin 1024, x2 (ix4 0 0 r e) * prob (tscore qs x1 mk) r c := by
  unfold k0_pay4
  refine (values_matmul_apply _ _ e c).trans (Finset.sum_congr rfl fun r _ => ?_)
  refine congrArg₂ (· * ·) (shapeCast_11ab_ab_apply x2 shapeCasts_S1x1x1024x64_S1024x64 r e) ?_
  refine (softmax_apply _ reduces_S1024x2048_S1024 _ _ _ _ shapeCasts_S1024_S1024x1 broadcasts_S1024x1_S1024x2048 r c).trans ?_
  refine congrArg (fun S => prob S r c) (funext fun r' => funext fun c' => ?_)
  show Scalar.select (IntOp.cmpi .ne (shapeCast S1024x2048 mk shapeCasts_S1x1x1024x2048_S1024x2048 (ix2 r' c')) 0#32) negBig
      (matmul D1 none (truncf .bf16 (shapeCast S1024x64 x1 shapeCasts_S1x1x1024x64_S1024x64) bitsLt_bf16_f32) qs
        (constant S1024x2048 .f32 0x00000000#32) (ix2 r' c')) = _
  rw [shapeCast_11ab_ab_apply, scores_matmul_apply]
  unfold tscore
  refine congrArg (Scalar.select _ negBig) (Finset.sum_congr rfl fun d _ => ?_)
  exact congrArg (· * qs (ix2 c' d)) (shapeCast_11ab_ab_apply x1 _ r' d)

end Cert.KernelIdeal.KPay

end
-- ==== Proof.Flush.lean ====
/-
  What the kernel's output array holds after the run.  Each head's block is written back once, after the head's
  second key tile, holding zero plus the first tile's contribution plus the second's.  Substituting which entries of
  q, k, v and of the mask each tile's blocks hold, a tile's masked scores are rows of the head's score matrix, a row's
  soft-max depends on that row only, and the two halves of the keys added in turn to zero make the sum over all the
  keys: the block is the head's attention output, features before queries.  The blocks of the 32 heads tile the
  array.
-/
import proofs.«177088_j4836133175782_2_alg».proof.Proof.Tiles
import proofs.«177088_j4836133175782_2_alg».proof.Proof.KPay

noncomputable section

open Idealize.ShloMosaic Idealize.ShloMosaic.TcCoe Idealize.SL.Sem Idealize.ShloMosaic.ValueIdx
open Idealize.ShloMosaic.Pipeline (Dat)

namespace Cert.KernelIdeal.Flush

open Cert.KernelIdeal Cert.KernelIdeal.Gen Cert.KernelIdeal.Pieces Cert.KernelIdeal.Tiles Cert.KernelIdeal.KPay
open Cert.Attn Cert.Attn.Layout

variable (m : (ℓ : Loc nD τ sig) → Buf (Elt Ideal) ℓ)

/-- A mask bit widened to a word is non-zero exactly when the bit is set. -/
theorem mask_word (b : BitVec 1) : IntOp.cmpi .ne (b.setWidth 32) 0#32 = b := by
  rcases BitVec.eq_zero_or_eq_one b with h | h <;> subst h <;> decide

/-- The argument arrays as the region finds them, as functions of an index. -/
abbrev Qa (c : Dev nD) : SQ.Idx → EReal := V m c main_arg0
abbrev Ka (c : Dev nD) : SQ.Idx → EReal := V m c main_arg1
abbrev Va (c : Dev nD) : SQ.Idx → EReal := V m c main_arg2
abbrev Ma (c : Dev nD) : SM.Idx → BitVec 1 := m ((c : Thread nD τ).loc main_arg3)

/-- The blocks point t's body loads. -/
abbrev qblk (c : Dev nD) (t : Fin cfg0.N) : Vec Ideal S1x1x2048x64 .f32 := iblk m c 0 t
abbrev kblk (c : Dev nD) (t : Fin cfg0.N) : Vec Ideal S1x1x1024x64 .f32 := iblk m c 1 t
abbrev vblk (c : Dev nD) (t : Fin cfg0.N) : Vec Ideal S1x1x1024x64 .f32 := iblk m c 2 t
abbrev mblk (c : Dev nD) (t : Fin cfg0.N) : Vec Ideal S1x1x1024x2048 .i32 := mrows (grid0.coords t) (iblk m c 3 t)

theorem qblk_apply (c : Dev nD) (t : Fin cfg0.N) (q : Fin 2048) (d : Fin 64) :
    qblk m c t (ix4 0 0 q d) = Qa m c (ix4 (bOf t) (hOf t) q d) := iblk0_apply m c t q d
theorem kblk_apply (c : Dev nD) (t : Fin cfg0.N) (r : Fin 1024) (d : Fin 64) :
    kblk m c t (ix4 0 0 r d) = Ka m c (ix4 (bOf t) (hOf t) (keyOf t r) d) := iblk1_apply m c t r d
theorem vblk_apply (c : Dev nD) (t : Fin cfg0.N) (r : Fin 1024) (d : Fin 64) :
    vblk m c t (ix4 0 0 r d) = Va m c (ix4 (bOf t) (hOf t) (keyOf t r) d) := iblk2_apply m c t r d
/-- The mask word the tile reads at (key r of the tile, query q): the argument mask's bit at (q, key), widened. -/
theorem mblk_apply (c : Dev nD) (t : Fin cfg0.N) (r : Fin 1024) (q : Fin 2048) :
    mblk m c t (ix4 0 0 r q) = (Ma m c (ix4 0 0 q (keyOf t r))).setWidth 32 := by
  refine (mrows_apply m c t r q).trans ?_
  rw [V_main_v1 m c, extui_apply, transpose_0132_apply]

/-- A head's block from its loaded blocks, at (feature e, query c): zero plus the two tiles' contributions. -/
theorem head_apply (x0 : Vec Ideal S1x1x2048x64 .f32) (ka kb va vb : Vec Ideal S1x1x1024x64 .f32)
    (ma mb : Vec Ideal S1x1x1024x2048 .i32) (e : Fin 64) (c : Fin 2048) :
    k0_pay1 (k0_pay4 (k0_pay3 x0) kb vb mb) (k0_pay1 (k0_pay4 (k0_pay3 x0) ka va ma) (k0_pay2 (F := Ideal))) (ix4 0 0 e c)
      = (0 + ∑ r : Fin 1024, va (ix4 0 0 r e) * prob (tscore (k0_pay3 x0) ka ma) r c)
        + ∑ r : Fin 1024, vb (ix4 0 0 r e) * prob (tscore (k0_pay3 x0) kb mb) r c := by
  rw [pay1_apply, pay1_apply, pay2_apply, pay4_apply, pay4_apply]

/-- The masked scores of point t's tile, the queries taken from a point t0 of the same head, are rows of the head's
    score matrix. -/
theorem tscore_eq (c : Dev nD) (t t0 : Fin cfg0.N) (hb : bOf t0 = bOf t) (hh : hOf t0 = hOf t) (r : Fin 1024) (q : Fin 2048) :
    tscore (k0_pay3 (qblk m c t0)) (kblk m c t) (mblk m c t) r q
      = kscores (Qa m c) (Ka m c) (Ma m c) (bOf t) (hOf t) (keyOf t r) q := by
  unfold tscore kscores
  rw [mblk_apply m c t r q, mask_word]
  refine congrArg (Scalar.select _ negBig) (Finset.sum_congr rfl fun d _ => ?_)
  rw [kblk_apply m c t r d, pay3_apply, qblk_apply m c t0 q d, hb, hh]

/-- One tile's sum over its keys, in the arrays' own indices. -/
theorem tile_sum (c : Dev nD) (t t0 : Fin cfg0.N) (hb : bOf t0 = bOf t) (hh : hOf t0 = hOf t) (e : Fin 64) (q : Fin 2048) :
    (∑ r : Fin 1024, vblk m c t (ix4 0 0 r e) * prob (tscore (k0_pay3 (qblk m c t0)) (kblk m c t) (mblk m c t)) r q)
      = ∑ r : Fin 1024, Va m c (ix4 (bOf t) (hOf t) (keyOf t r) e)
        * prob (kscores (Qa m c) (Ka m c) (Ma m c) (bOf t) (hOf t)) (keyOf t r) q := by
  have hs : tscore (k0_pay3 (qblk m c t0)) (kblk m c t) (mblk m c t)
      = fun r q => kscores (Qa m c) (Ka m c) (Ma m c) (bOf t) (hOf t) (keyOf t r) q :=
    funext fun r => funext fun q => tscore_eq m c t t0 hb hh r q
  rw [hs]
  refine Finset.sum_congr rfl fun r _ => ?_
  rw [vblk_apply m c t r e]
  rfl

/-- What a head's second tile writes back is the head's block of the attention output. -/
theorem flushed_eq (c : Dev nD) (t : Fin cfg0.N) (hf : (cfg0.win 4).flush t = true) :
    (dats m 0 c).flushed 4 t = ((cfg0.win 4).blk t).view.read (Elt Ideal)
      (GT (Qa m c) (Ka m c) (Va m c) (Ma m c)) := by
  have h1 : t.val % 2 = 1 := (flush0_4 t).mp hf
  have hN : t.val < 64 := lt_of_lt_of_eq t.isLt N64
  obtain ⟨e0, e1, e2, e3⟩ := idx4 t
  have hbp : bOf (prev t) = bOf t := Fin.ext (by show (t.val - 1) / 32 = t.val / 32; omega)
  have hhp : hOf (prev t) = hOf t := Fin.ext (by show (t.val - 1) / 2 % 16 = t.val / 2 % 16; omega)
  have hkp : ∀ r : Fin 1024, keyOf (prev t) r = lo r := fun r => Fin.ext (by show 1024 * ((t.val - 1) % 2) + r.val = r.val; omega)
  have hk : ∀ r : Fin 1024, keyOf t r = hi r := fun r => Fin.ext (by show 1024 * (t.val % 2) + r.val = 1024 + r.val; omega)
  show (cfg0.win 4).cut (grid0.coords t) ((dats m 0 c).after 4 t) = _
  rw [after0_4, block_second m c t h1]
  funext j
  obtain ⟨u, v, e, q, rfl⟩ : ∃ (u v : Fin 1) (e : Fin 64) (q : Fin 2048), j = ix4 u v e q := ⟨j 0, j 1, j 2, j 3, eq_ix4 j⟩
  obtain rfl : u = 0 := Subsingleton.elim _ _
  obtain rfl : v = 0 := Subsingleton.elim _ _
  have hidx : ((cfg0.win 4).blk t).view.emb (ix4 0 0 e q) = ix4 (bOf t) (hOf t) e q := funext fun a => Fin.ext (by
    match a with
    | ⟨0, _⟩ => show win0_4.index t (0 : Fin 4) * 1 + 1 * 0 = t.val / 32; omega
    | ⟨1, _⟩ => show win0_4.index t (1 : Fin 4) * 1 + 1 * 0 = t.val / 2 % 16; omega
    | ⟨2, _⟩ => show win0_4.index t (2 : Fin 4) * 64 + 1 * e.val = e.val; omega
    | ⟨3, _⟩ => show win0_4.index t (3 : Fin 4) * 2048 + 1 * q.val = q.val; omega)
  show k0_pay1 (k0_pay4 (k0_pay3 (qblk m c (prev t))) (kblk m c t) (vblk m c t) (mblk m c t))
      (k0_pay1 (k0_pay4 (k0_pay3 (qblk m c (prev t))) (kblk m c (prev t)) (vblk m c (prev t)) (mblk m c (prev t))) (k0_pay2 (F := Ideal)))
      (ix4 0 0 e q)
    = GT (Qa m c) (Ka m c) (Va m c) (Ma m c) (((cfg0.win 4).blk t).view.emb (ix4 0 0 e q))
  rw [hidx]
  refine (head_apply (qblk m c (prev t)) (kblk m c (prev t)) (kblk m c t) (vblk m c (prev t)) (vblk m c t)
    (mblk m c (prev t)) (mblk m c t) e q).trans ?_
  refine (congrArg₂ (· + ·) (congrArg (fun s => 0 + s) (tile_sum m c (prev t) (prev t) rfl rfl e q))
    (tile_sum m c t (prev t) hbp hhp e q)).trans ?_
  refine (congrArg₂ (· + ·)
    (congrArg (fun s => 0 + s) (Finset.sum_congr rfl fun r _ => by rw [hbp, hhp, hkp r]))
    (Finset.sum_congr rfl fun r _ => by rw [hk r])).trans ?_
  refine (sum_halves (fun kk => Va m c (ix4 (bOf t) (hOf t) kk e)
    * prob (kscores (Qa m c) (Ka m c) (Ma m c) (bOf t) (hOf t)) kk q)).trans ?_
  show _ = ∑ kk : Fin 2048, prob (scores (Qa m c) (Ka m c) (Ma m c) (bOf t) (hOf t)) kk q * Va m c (ix4 (bOf t) (hOf t) kk e)
  rw [kscores_eq]
  exact Finset.sum_congr rfl fun kk _ => mul_comm _ _

/-- An index of the output array is in point t's block iff each coordinate is in the block's range on its axis. -/
theorem mem_blk (t : Fin cfg0.N) (i : S2x16x64x2048.Idx) :
    i ∈ ((cfg0.win 4).blk t).view.set ↔ ∀ a : Fin 4, win0_4.index t a * S1x1x64x2048.size a ≤ (i a).val
      ∧ (i a).val < win0_4.index t a * S1x1x64x2048.size a + S1x1x64x2048.size a := by
  show i ∈ ((View.whole main_v2).slice (win0_4.rect t)).set ↔ _
  rw [View.set_slice_whole, Rect.mem_set_unit]
  exact Iff.rfl

/-- The output array after the run: attention's result with its last two axes swapped. -/
theorem final (c : Dev nD) : (dats m 0 c).arrAt 4 cfg0.N
    = GT (m ((c : Thread nD τ).loc main_arg0)) (m ((c : Thread nD τ).loc main_arg1)) (m ((c : Thread nD τ).loc main_arg2))
        (m ((c : Thread nD τ).loc main_arg3)) := by
  have e : GT (m ((c : Thread nD τ).loc main_arg0)) (m ((c : Thread nD τ).loc main_arg1)) (m ((c : Thread nD τ).loc main_arg2))
        (m ((c : Thread nD τ).loc main_arg3))
      = GT (Qa m c) (Ka m c) (Va m c) (Ma m c) := by
    show _ = GT (V m c main_arg0) (V m c main_arg1) (V m c main_arg2) (m ((c : Thread nD τ).loc main_arg3))
    rw [V_main_arg0, V_main_arg1, V_main_arg2]
  rw [e]
  refine (dats m 0 c).arrAt_eq_of_cover 4 _ (fun t hf => flushed_eq m c t hf) fun i => ?_
  have h0 : (i 0).val < 2 := (i 0).isLt
  have h1 : (i 1).val < 16 := (i 1).isLt
  have h2 : (i 2).val < 64 := (i 2).isLt
  have h3 : (i 3).val < 2048 := (i 3).isLt
  obtain ⟨t, ht⟩ : ∃ t : Fin cfg0.N, t.val = ((i 0).val * 16 + (i 1).val) * 2 + 1 :=
    ⟨⟨((i 0).val * 16 + (i 1).val) * 2 + 1, by rw [N64]; omega⟩, rfl⟩
  obtain ⟨e0, e1, e2, e3⟩ := idx4 t
  refine ⟨t, (flush0_4 t).mpr (by omega), ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 64 ≤ (i 2).val ∧ (i 2).val < win0_4.index t (2 : Fin 4) * 64 + 64; omega
  | ⟨3, _⟩ => show win0_4.index t (3 : Fin 4) * 2048 ≤ (i 3).val ∧ (i 3).val < win0_4.index t (3 : Fin 4) * 2048 + 2048; omega

end Cert.KernelIdeal.Flush

end
-- ==== Proof.lean ====
/-
  The claim: each of the three programs runs and leaves its arguments as launched, and the kernel and the reference,
  read over the extended reals, end with the same array from arguments that agree.

  Both compute masked soft-max attention with the soft-max taken over the queries.  The kernel scales the queries by
  1/8 before the dot product with the keys, and adds the keys' contributions in two halves of 1024 keys, in turn, to a
  zero block; the reference divides the dot product by 8 and sums over all 2048 keys at once.  On the extended reals
  the two are equal because a product with a non-negative finite constant distributes over every sum and addition is
  associative.  No finiteness of the inputs is used.

  Both sides are shown equal to ONE array G of the arguments: the kernel's region leaves G with the features before
  the queries and the last host operation swaps the two axes back; the reference's composed term is G index by index.
-/
import proofs.«177088_j4836133175782_2_alg».proof.Defs
import proofs.«177088_j4836133175782_2_alg».proof.Proof.Gen.Kernel
import proofs.«177088_j4836133175782_2_alg».proof.Proof.Gen.Kernel.Skeleton
import proofs.«177088_j4836133175782_2_alg».proof.Proof.Gen.Kernel.Launch
import proofs.«177088_j4836133175782_2_alg».proof.Proof.Gen.Kernel.Points
import proofs.«177088_j4836133175782_2_alg».proof.Proof.Gen.Kernel.Frame
import proofs.«177088_j4836133175782_2_alg».proof.Proof.Gen.KernelIdeal
import proofs.«177088_j4836133175782_2_alg».proof.Proof.Gen.KernelIdeal.Skeleton
import proofs.«177088_j4836133175782_2_alg».proof.Proof.Gen.KernelIdeal.Launch
import proofs.«177088_j4836133175782_2_alg».proof.Proof.Gen.KernelIdeal.Points
import proofs.«177088_j4836133175782_2_alg».proof.Proof.Gen.KernelIdeal.Frame
import proofs.«177088_j4836133175782_2_alg».proof.Proof.Gen.ReferenceIdeal
import proofs.«177088_j4836133175782_2_alg».proof.Proof.Gen.ReferenceIdeal.Read
import proofs.«177088_j4836133175782_2_alg».proof.Proof.Spec
import proofs.«177088_j4836133175782_2_alg».proof.Proof.Gen.Pre_finite_inputs
import proofs.«177088_j4836133175782_2_alg».proof.Proof.KRun
import proofs.«177088_j4836133175782_2_alg».proof.Proof.RefValue
import proofs.«177088_j4836133175782_2_alg».proof.Proof.Flush
import Idealize.ShloMosaic.Adequacy
import Idealize.ShloMosaic.Init

noncomputable section

namespace Cert.Proof

open Idealize.ShloMosaic Idealize.SL.Sem Cert.Kernel

/-- The program as printed runs and leaves its arguments as launched. -/
theorem frame_Kernel : Cert.frame_Kernel := fun m ρ _ => Cert.Kernel.Gen.frame m ρ

/-- So does the program read over the extended reals. -/
theorem frame_KernelIdeal : Cert.frame_KernelIdeal := fun m ρ _ => Cert.KernelIdeal.Gen.frame m ρ

/-- So does the reference: its run states the result too, which is dropped here. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The ideal reading rewrote no operation. -/
theorem preserves : Cert.preserves_Kernel_KernelIdeal := trivial

/-- Over the extended reals both programs end, from arguments that agree, with the specification's array G of those
    arguments: the kernel by its run (the region's output is G with features before queries, and the last host
    operation swaps the two axes back), the reference because its composed term is G index by index. -/
theorem algebraic : Cert.algebraic_KernelIdeal_ReferenceIdeal := by
  intro m ρ m' ρ' _ hagree
  refine ⟨fun c => Cert.Attn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KRun.run m ρ (Cert.KernelIdeal.Flush.final m), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _ _ _).trans ?_
  refine (Cert.Attn.RefValue.ref_eq _ _ _ _).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
